-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S10000x1 : Shape := ⟨2, ![10000, 1]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S10000x1 : S_.BroadcastsInDim S10000x1 (![] : Fin 0 → Fin S10000x1.rank)
  reducesTo_S10000x1_S_d0_1 : S10000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S10000x1 .f32) (main_arg3 : FVec F S128x128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x1 .f32 := Host.absf main_arg2
  let main_cst_2 : FVec F S_ .f32 := constant S_ .f32 0x7F800000#32
  let main_v10 : FVec F S10000x1 .f32 := broadcastInDim S10000x1 ![] bcast_S_S10000x1 main_cst_2
  let main_v11 : IVec S10000x1 1 := cmpf .olt main_v9 main_v10
  let main_c_3 : IVec S_ 1 := constantI S_ 1 1#1
  let main_v12 : IVec S_ 1 := (fun x v => Host.reduce IntOp.andi x v reducesTo_S10000x1_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S10000x1 : Shape := ⟨2, ![10000, 1]⟩
abbrev S128x128 : Shape := ⟨2, ![128, 128]⟩
abbrev S128 : Shape := ⟨1, ![128]⟩
abbrev S1x128 : Shape := ⟨2, ![1, 128]⟩
abbrev S80x10000 : Shape := ⟨2, ![80, 10000]⟩
abbrev S80x1 : Shape := ⟨2, ![80, 1]⟩
abbrev S80x128 : Shape := ⟨2, ![80, 128]⟩

abbrev nBuf : Space → Nat
  | .hbm => 7
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x1, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S80x10000, .f32⟩
  | .local _ .vmem, ⟨4, _⟩ => ⟨S80x10000, .f32⟩
  | .local _ .vmem, ⟨5, _⟩ => ⟨S80x1, .f32⟩
  | .local _ .vmem, ⟨6, _⟩ => ⟨S80x1, .f32⟩
  | .local _ .vmem, ⟨7, _⟩ => ⟨S80x128, .f32⟩
  | .local _ .vmem, ⟨8, _⟩ => ⟨S80x128, .f32⟩
  | .local _ .vmem, ⟨9, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![126], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off1 (i : grid0.Coords) : Fin 2 → Nat :=
  let arg0 : BitVec 32 := BitVec.ofNat 32 (i 0).val
  let c1_i32 : BitVec 32 := 1#32
  let v9 : BitVec 32 := Scalar.subi arg0 c1_i32
  let c80_i32 : BitVec 32 := 80#32
  let v10 : BitVec 32 := Scalar.muli v9 c80_i32
  let v11 : Index := Scalar.indexCast v10
  let c0_6 : Index := 0#32
  ![v11.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S80x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S80x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S80x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  inb_S80x10000_S80x10000_0_0 : ∀ a, (![0, 0] : Fin 2 → Nat) a + S80x10000.size a ≤ S80x10000.size a
  h_S80x10000 : 0 < S80x10000.numel
  h_S80x128 : 0 < S80x128.numel
  inb_S80x1_S80x1_0_0 : ∀ a, (![0, 0] : Fin 2 → Nat) a + S80x1.size a ≤ S80x1.size a
  h_S80x1 : 0 < S80x1.numel
  broadcasts_S80x1_S80x128 : S80x1.Broadcasts S80x128
  inb_S80x128_S80x128_0_0 : ∀ a, (![0, 0] : Fin 2 → Nat) a + S80x128.size a ≤ S80x128.size a
  dot_S10000x128_S128x128_S10000x128_1_0_0_1_n_n_wf : DotDims.WF S10000x128 S128x128 S10000x128 [1] [0] [0] [1] [] []
  dot_S80x10000_S10000x128_S80x128_1_0_0_1_n_n_wf : DotDims.WF S80x10000 S10000x128 S80x128 [1] [0] [0] [1] [] []
  hrank0 : 0 < grid0.rank
  k0_off1_inb : ∀ i : grid0.Coords, ∀ (k0_h2 : k0_cond2 i = 1#1), ∀ a, (k0_off1 i) a + S80x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S80x10000.size a ≤ S10000x10000.size a
  hwx0_3 : ∀ i : grid0.Coords, EltTy.bits .f32 = 32 ∨ (Rect.block (s := S10000x10000) S80x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S80x1.size a ≤ S10000x1.size a
  hwx0_4 : ∀ i : grid0.Coords, EltTy.bits .f32 = 32 ∨ (Rect.block (s := S10000x1) S80x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S80x128.size a ≤ S10000x128.size a
  hwx0_5 : ∀ i : grid0.Coords, EltTy.bits .f32 = 32 ∨ (Rect.block (s := S10000x128) S80x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S80x10000_S10000x128_S80x128_1_0_0_1_n_n : DotDims S80x10000 S10000x128 S80x128 where
  lhsContracting := [1]
  rhsContracting := [0]
  lhsNonContracting := [0]
  rhsNonContracting := [1]
  lhsBatch := []
  rhsBatch := []
  wf := dot_S80x10000_S10000x128_S80x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S80x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S80x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S80x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S10000x1 : Shape := ⟨2, ![10000, 1]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x1, .f32⟩
  | .hbm, ⟨3, _⟩ => ⟨S128x128, .f32⟩
  | .hbm, ⟨4, _⟩ => ⟨S128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Cases.lean ====
/-
  What the two cases of the kernel body leave behind, as values of the blocks they load, for any float values.

  The body has two cases. At the first grid point it loads the feature block, the weight block and the bias row whole
  and stores one value over its whole scratch: the scratch then holds that stored value (`first_point_scratch`). At
  every later point it stores nothing into the scratch, and stores one value over its whole output block, computed
  from the point's adjacency block and scale block loaded whole, the scratch loaded whole, and the 80 rows of the
  scratch starting at the point's row offset (`later_point_output`).

-/
import proofs.«156393_g26182120636488_cont_sun_m_430_15_alg».proof.Proof.Gen.KernelIdeal.Frame
import Idealize.ShloMosaic.Lib.Pipeline.Value
import Idealize.ShloMosaic.Lib.Tactic

noncomputable section

namespace Cert.GraphConv.Kernel

open Cert.KernelIdeal Cert.KernelIdeal.Gen Idealize.ShloMosaic Idealize.ShloMosaic.TcCoe Idealize.SL.Sem
open Idealize.ShloMosaic.Pipeline (Dat)

variable {F : FTy → Type} [FloatOps F]

theorem zero_offsets : (![0, 0] : Fin 2 → Nat) = fun _ => 0 := funext fun a => by fin_cases a <;> rfl

/-- The first point leaves in the scratch the value it stores there: a function of the feature block, the weight block
    and the bias row, each loaded whole. -/
theorem first_point_scratch (c : Dev nD) (i : grid0.Coords)
    (a1 : Memref sig .tc .vmem S10000x128 .f32) (h1 : a1.IsWhole) (a2 : Memref sig .tc .vmem S128x128 .f32) (h2 : a2.IsWhole)
    (a3 : Memref sig .tc .vmem S1x128 .f32) (h3 : a3.IsWhole) (a4 : Memref sig .tc .vmem S80x10000 .f32) (h4 : a4.IsWhole)
    (a5 : Memref sig .tc .vmem S80x1 .f32) (h5 : a5.IsWhole) (a6 : Memref sig .tc .vmem S80x128 .f32) (h6 : a6.IsWhole)
    (a7 : Memref sig .tc .vmem S10000x128 .f32) (h7 : a7.IsWhole) (hc0 : cond0_0 i) (hc1 : ¬cond0_1 i)
    (x0 : Vec F S10000x128 .f32) (x1 : Vec F S128x128 .f32) (x2 : Vec F S1x128 .f32) (x3 : Vec F S80x10000 .f32)
    (x4 : Vec F S80x1 .f32) :
    sout0_A_0 c i a1 h1 a2 h2 a3 h3 a4 h4 a5 h5 a6 h6 a7 h7 hc0 hc1 x0 x1 x2 x3 x4 = k0_pay1 x0 x1 x2 := by
  unfold sout0_A_0
  rw [View.read_writes_eq_canon _ _ _ (scover0_A_0 c i a1 h1 a2 h2 a3 h3 a4 h4 a5 h5 a6 h6 a7 h7 hc0 hc1 x0 x1 x2 x3 x4)]
  unfold kernelRun0_A
  dsimp only
  rw [View.canon_unit_zero zero_offsets]
  simp only [View.readAt_eq_ld, h1.read_unread, h2.read_unread, h3.read_unread,
    View.ld_unit_zero (S := S10000x128) zero_offsets, View.ld_unit_zero (S := S128x128) zero_offsets,
    View.ld_unit_zero (S := S1x128) zero_offsets]

/-- A later point leaves in its output block the value it stores there: a function of the adjacency block and the
    scale block loaded whole, of the scratch `xs` loaded whole, and of the 80 rows of the scratch at the point's offset. -/
theorem later_point_output (c : Dev nD) (i : grid0.Coords)
    (a1 : Memref sig .tc .vmem S10000x128 .f32) (h1 : a1.IsWhole) (a2 : Memref sig .tc .vmem S128x128 .f32) (h2 : a2.IsWhole)
    (a3 : Memref sig .tc .vmem S1x128 .f32) (h3 : a3.IsWhole) (a4 : Memref sig .tc .vmem S80x10000 .f32) (h4 : a4.IsWhole)
    (a5 : Memref sig .tc .vmem S80x1 .f32) (h5 : a5.IsWhole) (a6 : Memref sig .tc .vmem S80x128 .f32) (h6 : a6.IsWhole)
    (a7 : Memref sig .tc .vmem S10000x128 .f32) (h7 : a7.IsWhole) (hc0 : ¬cond0_0 i) (hc1 : cond0_1 i)
    (x0 : Vec F S10000x128 .f32) (x1 : Vec F S128x128 .f32) (x2 : Vec F S1x128 .f32) (x3 : Vec F S80x10000 .f32)
    (x4 : Vec F S80x1 .f32) (xs : Vec F S10000x128 .f32) :
    out0_B_5 c i a1 h1 a2 h2 a3 h3 a4 h4 a5 h5 a6 h6 a7 h7 hc0 hc1 x0 x1 x2 x3 x4 xs
      = k0_pay2 x3 xs (View.ld xs (Rect.unit (s := S10000x128) (k0_off1 i) S80x128.size (k0_off1_inb i hc1))) x4 := by
  unfold out0_B_5
  rw [View.read_writes_eq_canon _ _ _ (cover0_B_5 c i a1 h1 a2 h2 a3 h3 a4 h4 a5 h5 a6 h6 a7 h7 hc0 hc1 x0 x1 x2 x3 x4 xs)]
  unfold kernelRun0_B
  dsimp only
  rw [View.canon_unit_zero zero_offsets]
  simp only [View.readAt_eq_ld, h4.read_unread, h5.read_unread, h7.read_unread,
    View.ld_unit_zero (S := S80x10000) zero_offsets, View.ld_unit_zero (S := S10000x128) zero_offsets,
    View.ld_unit_zero (S := S80x1) zero_offsets]

end Cert.GraphConv.Kernel

end
-- ==== Proof.Scratch.lean ====
/-
  After every grid point the scratch holds what the first point stored.

  Only the first point's case writes the scratch; every later point's case leaves it as the point before left it. So,
  by induction on the point, the scratch after any point is the first point's stored value of the three blocks the
  first point loads.
-/
import proofs.«156393_g26182120636488_cont_sun_m_430_15_alg».proof.Proof.Cases

noncomputable section

namespace Cert.GraphConv.Kernel

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- What the first point (point `0`, whatever the proof that it is a point) stores into the scratch. -/
abbrev storedSupport (c : Dev nD) (h : 0 < cfg0.N) : Vec F S10000x128 .f32 :=
  k0_pay1 (iblk m c 0 ⟨0, h⟩) (iblk m c 1 ⟨0, h⟩) (iblk m c 2 ⟨0, h⟩)

theorem grid_pos : 0 < cfg0.N := by rw [show cfg0.N = 126 from N_0]; decide

/-- After the first point the scratch holds what that point stored. -/
theorem scratch_first (c : Dev nD) (h : 0 < cfg0.N) : (outsAt0 m c 0 h).2 = storedSupport m c h := by
  have e := outsAt0_A m c ⟨0, h⟩ rfl (Nat.not_succ_le_zero 0)
  rw [first_point_scratch] at e
  exact congrArg Prod.snd e

/-- A later point leaves the scratch as the point before left it. -/
theorem scratch_step (c : Dev nD) (n : ℕ) (h : n + 1 < cfg0.N) :
    (outsAt0 m c (n + 1) h).2 = (outsAt0 m c n (Nat.lt_of_succ_lt h)).2 := by
  have hN : cfg0.N = 126 := N_0
  have h0 : ¬(⟨n + 1, h⟩ : Fin cfg0.N).val % 126 = 0 := by dsimp only; omega
  have h1 : 1 ≤ (⟨n + 1, h⟩ : Fin cfg0.N).val := by dsimp only; omega
  rw [outsAt0_B m c ⟨n + 1, h⟩ h0 h1]
  rfl

/-- After every point the scratch holds what the first point stored. -/
theorem scratch_after (c : Dev nD) : ∀ (n : ℕ) (h : n < cfg0.N), (outsAt0 m c n h).2 = storedSupport m c grid_pos
  | 0, h => scratch_first m c h
  | n + 1, h => (scratch_step m c n h).trans (scratch_after c n (Nat.lt_of_succ_lt h))

end Cert.GraphConv.Kernel

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.Payload.lean ====
/-
  The two values the kernel body stores, read at one entry on the extended reals.

  At its first grid point the body stores into its scratch the product of the feature block by the weight block,
  accumulated from zero, plus the bias row repeated over the rows: at `(r, q)` that is
  `(Σ k < 128, x (r, k) · W (k, q)) + b (0, q)`.

  At every later point it stores into the output block, for the 80 rows `p` of the point's block,
  `max (s' (p, q) − d (p, 0) · Σ k < 10000, a (p, k) · s (k, q)) 0`, where `a` is the point's 80 × 10000 block of the
  adjacency, `s` the whole scratch, `s'` the 80 rows of the scratch that belong to the point, and `d` the point's 80 × 1
  block of the scale column repeated over the 128 columns.

  Each product is a contraction over one shared axis into a zero accumulator, so at an entry it is the plain sum over
  that axis's coordinate of the operands at `(row, k)` and `(k, column)`.
-/
import proofs.«156393_g26182120636488_cont_sun_m_430_15_alg».proof.Proof.Gen.KernelIdeal.Skeleton
import proofs.«156393_g26182120636488_cont_sun_m_430_15_alg».proof.Proof.LibDotSum
import Idealize.ShloMosaic.Lib.ValueLayout
import Idealize.ShloMosaic.Lib.Pipeline.Value
import Idealize.ShloMosaic.PureOps.Ideal.Laws

noncomputable section

namespace Cert.GraphConv.Kernel

open Cert.KernelIdeal Cert.KernelIdeal.Gen Idealize.ShloMosaic Idealize.ShloMosaic.ValueIdx

/-- A column `[a, 1]` repeated over `b` columns reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product of the feature block by the weight block, from a zero accumulator, at `(r, q)`. -/
theorem features_dot (x : FVec Ideal S10000x128 .f32) (W : FVec Ideal S128x128 .f32) (r : Fin 10000) (q : Fin 128) :
    matmul dot_S10000x128_S128x128_S10000x128_1_0_0_1_n_n none x W (constant S10000x128 .f32 0x00000000#32) (ix2 r q)
      = ∑ k : Fin 128, x (ix2 r k) * W (ix2 k q) :=
  (Ideal.matmul_constant_zero_apply dot_S10000x128_S128x128_S10000x128_1_0_0_1_n_n none x W (ix2 r q)).trans
    (LibDotSum.sum_dot dot_S10000x128_S128x128_S10000x128_1_0_0_1_n_n rfl rfl
      (fun j k => by
        unfold DotDims.lhsIdx
        rw [dif_neg (show ¬(0 : Fin S10000x128.rank) ∈ dot_S10000x128_S128x128_S10000x128_1_0_0_1_n_n.lhsBatch by decide),
          dif_pos (show (0 : Fin S10000x128.rank) ∈ dot_S10000x128_S128x128_S10000x128_1_0_0_1_n_n.lhsNonContracting by decide)]
        rfl)
      (fun j k => dot_S10000x128_S128x128_S10000x128_1_0_0_1_n_n.lhsIdx_val_of_single rfl j k)
      (fun j k => dot_S10000x128_S128x128_S10000x128_1_0_0_1_n_n.rhsIdx_val_of_single rfl j k)
      (fun j k => by
        unfold DotDims.rhsIdx
        rw [dif_neg (show ¬(1 : Fin S128x128.rank) ∈ dot_S10000x128_S128x128_S10000x128_1_0_0_1_n_n.rhsBatch by decide),
          dif_pos (show (1 : Fin S128x128.rank) ∈ dot_S10000x128_S128x128_S10000x128_1_0_0_1_n_n.rhsNonContracting by decide)]
        rfl)
      x W r q)

/-- The product of an 80-row block of the adjacency by the whole scratch, from a zero accumulator, at `(p, q)`. -/
theorem aggregate_dot (a : FVec Ideal S80x10000 .f32) (s : FVec Ideal S10000x128 .f32) (p : Fin 80) (q : Fin 128) :
    matmul dot_S80x10000_S10000x128_S80x128_1_0_0_1_n_n none a s (constant S80x128 .f32 0x00000000#32) (ix2 p q)
      = ∑ k : Fin 10000, a (ix2 p k) * s (ix2 k q) :=
  (Ideal.matmul_constant_zero_apply dot_S80x10000_S10000x128_S80x128_1_0_0_1_n_n none a s (ix2 p q)).trans
    (LibDotSum.sum_dot dot_S80x10000_S10000x128_S80x128_1_0_0_1_n_n rfl rfl
      (fun j k => by
        unfold DotDims.lhsIdx
        rw [dif_neg (show ¬(0 : Fin S80x10000.rank) ∈ dot_S80x10000_S10000x128_S80x128_1_0_0_1_n_n.lhsBatch by decide),
          dif_pos (show (0 : Fin S80x10000.rank) ∈ dot_S80x10000_S10000x128_S80x128_1_0_0_1_n_n.lhsNonContracting by decide)]
        rfl)
      (fun j k => dot_S80x10000_S10000x128_S80x128_1_0_0_1_n_n.lhsIdx_val_of_single rfl j k)
      (fun j k => dot_S80x10000_S10000x128_S80x128_1_0_0_1_n_n.rhsIdx_val_of_single rfl j k)
      (fun j k => by
        unfold DotDims.rhsIdx
        rw [dif_neg (show ¬(1 : Fin S10000x128.rank) ∈ dot_S80x10000_S10000x128_S80x128_1_0_0_1_n_n.rhsBatch by decide),
          dif_pos (show (1 : Fin S10000x128.rank) ∈ dot_S80x10000_S10000x128_S80x128_1_0_0_1_n_n.rhsNonContracting by decide)]
        rfl)
      a s p q)

/-- What the first point stores into the scratch, at `(r, q)`. -/
theorem stored_support (x : FVec Ideal S10000x128 .f32) (W : FVec Ideal S128x128 .f32) (b : FVec Ideal S1x128 .f32)
    (r : Fin 10000) (q : Fin 128) :
    k0_pay1 (F := Ideal) x W b (ix2 r q) = (∑ k : Fin 128, x (ix2 r k) * W (ix2 k q)) + b (ix2 (0 : Fin 1) q) := by
  unfold k0_pay1
  refine (congrFun (shapeCast_self _ shapeCasts_S10000x128_S10000x128) (ix2 r q)).trans ?_
  refine (addf_apply _ _ (ix2 r q)).trans ?_
  refine congrArg₂ (· + ·) (features_dot x W r q) ?_
  refine (broadcastTo_1b_ab_apply _ broadcasts_S1x128_S10000x128 r q).trans ?_
  exact congrFun (shapeCast_self b shapeCasts_S1x128_S1x128) (ix2 (0 : Fin 1) q)

/-- What a later point stores into its output block, at `(p, q)`. -/
theorem stored_entry (a : FVec Ideal S80x10000 .f32) (s : FVec Ideal S10000x128 .f32) (s' : FVec Ideal S80x128 .f32)
    (d : FVec Ideal S80x1 .f32) (p : Fin 80) (q : Fin 128) :
    k0_pay2 (F := Ideal) a s s' d (ix2 p q)
      = max (s' (ix2 p q) - d (ix2 p (0 : Fin 1)) * ∑ k : Fin 10000, a (ix2 p k) * s (ix2 k q))
          (Ideal.ofBits .f32 0x00000000#32) := by
  unfold k0_pay2
  refine (maximumf_apply _ _ (ix2 p q)).trans ?_
  refine congrArg₂ max ?_ rfl
  refine (subf_apply _ _ (ix2 p q)).trans ?_
  refine congrArg₂ (· - ·) rfl ?_
  refine (mulf_apply _ _ (ix2 p q)).trans ?_
  exact congrArg₂ (· * ·) (broadcastTo_a1_ab_apply d broadcasts_S80x1_S80x128 p q) (aggregate_dot a s p q)

end Cert.GraphConv.Kernel

end
-- ==== Proof.Spec.lean ====
/-
  The graph-convolution layer as one function of its five argument arrays, entry by entry, on the extended reals.

  For node features `x` (10000 × 128), a dense adjacency `adj` (10000 × 10000), a per-node scale `dn` (10000 × 1),
  weights `W` (128 × 128) and a bias `b` (128):

      support (r, q) = (Σ k < 128, x (r, k) · W (k, q)) + b q
      layer   (r, q) = max (support (r, q) − dn (r, 0) · Σ k < 10000, adj (r, k) · support (k, q)) 0

  Each node's transformed features, minus the scaled aggregate of the transformed features over the rows of the
  adjacency, clamped below at zero. The zero is kept as the 32-bit word both programs write, so it is never evaluated.
  Both programs compute these two sums in exactly this shape, so nothing here needs the entries to be finite.
-/
import Idealize.ShloMosaic.PureOps.Ideal
import Idealize.ShloMosaic.Lib.ValueIdx

noncomputable section

namespace Cert.GraphConv

open Idealize.ShloMosaic Idealize.ShloMosaic.ValueIdx

/-- A matrix of extended reals with `n` rows and `k` columns. -/
abbrev Mat (n k : Nat) : Type := (⟨2, ![n, k]⟩ : Shape).Idx → EReal

/-- A vector of extended reals with `n` entries. -/
abbrev Vect (n : Nat) : Type := (⟨1, ![n]⟩ : Shape).Idx → EReal

/-- Row `r`, column `q` of `x · W + b`: the node's transformed features. -/
def support (x : Mat 10000 128) (W : Mat 128 128) (b : Vect 128) (r : Fin 10000) (q : Fin 128) : EReal :=
  (∑ k : Fin 128, x (ix2 r k) * W (ix2 k q)) + b (ix1 q)

/-- Row `r`, column `q` of the layer's result: the node's transformed features minus `dn r` times the aggregate of the
    transformed features along row `r` of the adjacency, clamped below at zero. -/
def entry (x : Mat 10000 128) (adj : Mat 10000 10000) (dn : Mat 10000 1) (W : Mat 128 128) (b : Vect 128)
    (r : Fin 10000) (q : Fin 128) : EReal :=
  max (support x W b r q - dn (ix2 r (0 : Fin 1)) * ∑ k : Fin 10000, adj (ix2 r k) * support x W b k q)
    (Ideal.ofBits .f32 0x00000000#32)

/-- The layer's result as an array. -/
def layer (x : Mat 10000 128) (adj : Mat 10000 10000) (dn : Mat 10000 1) (W : Mat 128 128) (b : Vect 128) :
    Mat 10000 128 :=
  fun i => entry x adj dn W b (i 0) (i 1)

theorem layer_apply (x : Mat 10000 128) (adj : Mat 10000 10000) (dn : Mat 10000 1) (W : Mat 128 128) (b : Vect 128)
    (r : Fin 10000) (q : Fin 128) : layer x adj dn W b (ix2 r q) = entry x adj dn W b r q := rfl

end Cert.GraphConv

end
-- ==== Proof.PointValue.lean ====
/-
  What a later grid point stores is the layer's entries for the point's 80 rows.

  Let the blocks a point loads be restrictions of the five argument arrays: the feature block and the weight block
  the whole arrays, the bias row the bias, the adjacency block and the scale block the rows `R p` (`p < 80`) of their
  arrays, and the scratch rows the point uses the rows `R p` of what the first point stored. Then the first point's
  stored value at `(r, q)` is `support (r, q)`, and the later point's stored value at `(p, q)` is the layer's entry at
  `(R p, q)`: both are the same sums with the same operands, so the equality is by rewriting the operands.
-/
import proofs.«156393_g26182120636488_cont_sun_m_430_15_alg».proof.Proof.Payload
import proofs.«156393_g26182120636488_cont_sun_m_430_15_alg».proof.Proof.Spec

noncomputable section

namespace Cert.GraphConv.Kernel

open Cert.KernelIdeal Cert.KernelIdeal.Gen Idealize.ShloMosaic Idealize.ShloMosaic.ValueIdx

/-- The first point's stored value, of blocks that are the whole feature, weight and bias arrays, is `support`. -/
theorem stored_support_eq (x : GraphConv.Mat 10000 128) (W : GraphConv.Mat 128 128) (b : GraphConv.Vect 128)
    (xb : FVec Ideal S10000x128 .f32) (Wb : FVec Ideal S128x128 .f32) (bb : FVec Ideal S1x128 .f32)
    (hx : ∀ (r : Fin 10000) (k : Fin 128), xb (ix2 r k) = x (ix2 r k))
    (hW : ∀ (k : Fin 128) (q : Fin 128), Wb (ix2 k q) = W (ix2 k q))
    (hb : ∀ q : Fin 128, bb (ix2 (0 : Fin 1) q) = b (ix1 q)) (r : Fin 10000) (q : Fin 128) :
    k0_pay1 (F := Ideal) xb Wb bb (ix2 r q) = GraphConv.support x W b r q := by
  rw [stored_support]
  simp only [hx, hW, hb]
  rfl

/-- A later point's stored value at `(p, q)` is the layer's entry at `(R p, q)`. -/
theorem stored_entry_eq (x : GraphConv.Mat 10000 128) (adj : GraphConv.Mat 10000 10000) (dn : GraphConv.Mat 10000 1)
    (W : GraphConv.Mat 128 128) (b : GraphConv.Vect 128)
    (xb : FVec Ideal S10000x128 .f32) (Wb : FVec Ideal S128x128 .f32) (bb : FVec Ideal S1x128 .f32)
    (ab : FVec Ideal S80x10000 .f32) (db : FVec Ideal S80x1 .f32) (srows : FVec Ideal S80x128 .f32)
    (R : Fin 80 → Fin 10000)
    (hx : ∀ (r : Fin 10000) (k : Fin 128), xb (ix2 r k) = x (ix2 r k))
    (hW : ∀ (k : Fin 128) (q : Fin 128), Wb (ix2 k q) = W (ix2 k q))
    (hb : ∀ q : Fin 128, bb (ix2 (0 : Fin 1) q) = b (ix1 q))
    (ha : ∀ (p : Fin 80) (k : Fin 10000), ab (ix2 p k) = adj (ix2 (R p) k))
    (hd : ∀ p : Fin 80, db (ix2 p (0 : Fin 1)) = dn (ix2 (R p) (0 : Fin 1)))
    (hs : ∀ (p : Fin 80) (q : Fin 128), srows (ix2 p q) = k0_pay1 (F := Ideal) xb Wb bb (ix2 (R p) q))
    (p : Fin 80) (q : Fin 128) :
    k0_pay2 (F := Ideal) ab (k0_pay1 (F := Ideal) xb Wb bb) srows db (ix2 p q)
      = GraphConv.entry x adj dn W b (R p) q := by
  rw [stored_entry, hs, hd]
  simp only [stored_support_eq x W b xb Wb bb hx hW hb, ha]
  rfl

end Cert.GraphConv.Kernel

end
-- ==== Proof.KernelValue.lean ====
/-
  The kernel's result array is the layer of the argument arrays.

  The grid has 126 points. Point `0` computes the transformed features into the scratch; point `t ≥ 1` computes the
  80 rows `80 (t − 1) … 80 (t − 1) + 79` of the result. The block index of the adjacency window, the scale window and
  the output window at point `t` is `t − 1` (truncated at zero, so points `0` and `1` share block `0`); the feature,
  weight and bias windows have the one block `0`. The output block is written back at every point from `1` on and not
  at point `0`, so every write-back carries a later point's stored value.

  A block's element `(p, k)` sits in its array at row `block index · block rows + p`. Hence at point `t ≥ 1` the
  adjacency block, the scale block and the scratch rows the point uses are rows `80 (t − 1) + p` of the adjacency, of the
  scale column and of what the first point stored; the feature and weight blocks are the whole arrays and the bias row
  is the bias vector laid out as one row. With these, what point `t` writes back is block `t − 1` of the layer
  (`written_back`). Row `r` of the result lies in the block written back at point `r / 80 + 1` (`covered`), so the
  whole result array ends holding the layer (`result_array`, `run`).
-/
import proofs.«156393_g26182120636488_cont_sun_m_430_15_alg».proof.Proof.Gen.KernelIdeal.Value
import proofs.«156393_g26182120636488_cont_sun_m_430_15_alg».proof.Proof.Scratch
import proofs.«156393_g26182120636488_cont_sun_m_430_15_alg».proof.Proof.PointValue
import Idealize.ShloMosaic.Lib.ValueLayout
import Idealize.ShloMosaic.Lib.StableHlo.Run

noncomputable section

namespace Cert.GraphConv.Kernel

open Cert.KernelIdeal Cert.KernelIdeal.Gen Idealize.ShloMosaic Idealize.ShloMosaic.ValueIdx Idealize.ShloMosaic.TcCoe
open Idealize.SL.Sem
open Idealize.ShloMosaic.Pipeline (Dat)

variable (m : (ℓ : Loc nD τ sig) → Buf (Elt Ideal) ℓ) (ρ : Dev nD → PrngReg)

/-! ## The windows' block indices and the write-backs, decided over the grid -/

/-- The block indices at point `t`: zero for the feature, weight and bias windows; `t − 1` (truncated) along the rows
    for the adjacency, scale and output windows. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val - 1 ∧ win0_3.index t (1 : Fin 2) = 0
    ∧ win0_4.index t (0 : Fin 2) = t.val - 1 ∧ win0_4.index t (1 : Fin 2) = 0
    ∧ win0_5.index t (0 : Fin 2) = t.val - 1 ∧ win0_5.index t (1 : Fin 2) = 0 :=
  (by decide +kernel : ∀ t : Fin grid0.N, _)

/-- The scratch rows a later point reads start at row `80 (t − 1)`. -/
theorem offset_facts : ∀ t : Fin cfg0.N, 1 ≤ t.val →
    k0_off1 (grid0.coords t) (0 : Fin 2) = (t.val - 1) * 80 ∧ k0_off1 (grid0.coords t) (1 : Fin 2) = 0 :=
  (by decide +kernel : ∀ t : Fin grid0.N, _)

/-- The output block is written back exactly at the points from `1` on. -/
theorem flush_iff : ∀ t : Fin cfg0.N, (cfg0.win 5).flush t = true ↔ 1 ≤ t.val :=
  (by decide +kernel : ∀ t : Fin grid0.N, _)

/-- Row `p` of the block of point `t`, as a row of the whole array. -/
def rowOf (t : Fin cfg0.N) (p : Fin 80) : Fin 10000 :=
  ⟨(t.val - 1) * 80 + p.val, by
    have h := lt_of_lt_of_eq t.isLt (show cfg0.N = 126 from N_0)
    have := p.isLt
    omega⟩

/-! ## The blocks the points load, as entries of the argument arrays -/

/-- The feature window's one block is the feature array. -/
theorem features_block (c : Dev nD) (t : Fin cfg0.N) (r : Fin 10000) (k : Fin 128) :
    (iblk m c 0 t : Vec Ideal S10000x128 .f32) (ix2 r k) = m ((c : Thread nD τ).loc main_arg0) (ix2 r k) := by
  obtain ⟨e0, e1, -⟩ := index_facts t
  unfold iblk
  rw [View.read_apply]
  show V m c main_arg0 (((cfg0.win 0).blk t).view.emb (ix2 r k)) = _
  rw [V_main_arg0]
  have h : ((cfg0.win 0).blk t).view.emb (ix2 r k) = ix2 r k := by
    funext a; apply Fin.ext
    match a with
    | ⟨0, _⟩ => show win0_0.index t (0 : Fin 2) * 10000 + 1 * r.val = r.val; omega
    | ⟨1, _⟩ => show win0_0.index t (1 : Fin 2) * 128 + 1 * k.val = k.val; omega
  rw [h]

/-- The weight window's one block is the weight array. -/
theorem weights_block (c : Dev nD) (t : Fin cfg0.N) (k : Fin 128) (q : Fin 128) :
    (iblk m c 1 t : Vec Ideal S128x128 .f32) (ix2 k q) = m ((c : Thread nD τ).loc main_arg3) (ix2 k q) := by
  obtain ⟨-, -, e0, e1, -⟩ := index_facts t
  unfold iblk
  rw [View.read_apply]
  show V m c main_arg3 (((cfg0.win 1).blk t).view.emb (ix2 k q)) = _
  rw [V_main_arg3]
  have h : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [h]

/-- The bias row the region finds is the bias vector laid out as one row. -/
theorem bias_row (c : Dev nD) :
    (V m c main_v0 : S1x128.Idx → EReal)
      = shapeCast S1x128 (m ((c : Thread nD τ).loc main_arg4)) shapeCasts_S128_S1x128 := by
  dsimp only [Gen.V, Gen.hostOps0]
  after_results
  rfl

/-- The bias window's one block is the bias vector as one row. -/
theorem bias_block (c : Dev nD) (t : Fin cfg0.N) (q : Fin 128) :
    (iblk m c 2 t : Vec Ideal S1x128 .f32) (ix2 (0 : Fin 1) q) = m ((c : Thread nD τ).loc main_arg4) (ix1 q) := by
  obtain ⟨-, -, -, -, e0, e1, -⟩ := index_facts t
  unfold iblk
  rw [View.read_apply]
  show V m c main_v0 (((cfg0.win 2).blk t).view.emb (ix2 (0 : Fin 1) q)) = _
  have h : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 128 + 1 * q.val = q.val; omega
  rw [h, bias_row]
  exact shapeCast_a_1a_apply _ shapeCasts_S128_S1x128 (0 : Fin 1) q

/-- The adjacency block of point `t` is rows `80 (t − 1) + p` of the adjacency. -/
theorem adjacency_block (c : Dev nD) (t : Fin cfg0.N) (p : Fin 80) (k : Fin 10000) :
    (iblk m c 3 t : Vec Ideal S80x10000 .f32) (ix2 p k) = m ((c : Thread nD τ).loc main_arg1) (ix2 (rowOf t p) k) := by
  obtain ⟨-, -, -, -, -, -, e0, e1, -⟩ := index_facts t
  unfold iblk
  rw [View.read_apply]
  show V m c main_arg1 (((cfg0.win 3).blk t).view.emb (ix2 p k)) = _
  rw [V_main_arg1]
  have h : ((cfg0.win 3).blk t).view.emb (ix2 p k) = ix2 (rowOf t p) k := by
    funext a; apply Fin.ext
    match a with
    | ⟨0, _⟩ => show win0_3.index t (0 : Fin 2) * 80 + 1 * p.val = (t.val - 1) * 80 + p.val; omega
    | ⟨1, _⟩ => show win0_3.index t (1 : Fin 2) * 10000 + 1 * k.val = k.val; omega
  rw [h]

/-- The scale block of point `t` is rows `80 (t − 1) + p` of the scale column. -/
theorem scale_block (c : Dev nD) (t : Fin cfg0.N) (p : Fin 80) :
    (iblk m c 4 t : Vec Ideal S80x1 .f32) (ix2 p (0 : Fin 1))
      = m ((c : Thread nD τ).loc main_arg2) (ix2 (rowOf t p) (0 : Fin 1)) := by
  obtain ⟨-, -, -, -, -, -, -, -, e0, e1, -⟩ := index_facts t
  unfold iblk
  rw [View.read_apply]
  show V m c main_arg2 (((cfg0.win 4).blk t).view.emb (ix2 p (0 : Fin 1))) = _
  rw [V_main_arg2]
  have h : ((cfg0.win 4).blk t).view.emb (ix2 p (0 : Fin 1)) = ix2 (rowOf t p) (0 : Fin 1) := by
    funext a; apply Fin.ext
    match a with
    | ⟨0, _⟩ => show win0_4.index t (0 : Fin 2) * 80 + 1 * p.val = (t.val - 1) * 80 + p.val; omega
    | ⟨1, _⟩ => show win0_4.index t (1 : Fin 2) * 1 + 1 * 0 = 0; omega
  rw [h]

/-- The 80 rows of an array read at a later point's row offset are its rows `80 (t − 1) + p`. -/
theorem rows_at_offset (xs : Vec Ideal S10000x128 .f32) (t : Fin cfg0.N) (ht : 1 ≤ t.val)
    (inb : ∀ a, k0_off1 (grid0.coords t) a + S80x128.size a ≤ S10000x128.size a) (p : Fin 80) (q : Fin 128) :
    View.ld xs (Rect.unit (s := S10000x128) (k0_off1 (grid0.coords t)) S80x128.size inb) (ix2 p q)
      = xs (ix2 (rowOf t p) q) := by
  obtain ⟨e0, e1⟩ := offset_facts t ht
  show xs ((Rect.unit (s := S10000x128) (k0_off1 (grid0.coords t)) S80x128.size inb).idx (ix2 p q)) = _
  refine congrArg xs (funext fun a => Fin.ext ?_)
  match a with
  | ⟨0, _⟩ => show k0_off1 (grid0.coords t) (0 : Fin 2) + 1 * p.val = (t.val - 1) * 80 + p.val; omega
  | ⟨1, _⟩ => show k0_off1 (grid0.coords t) (1 : Fin 2) + 1 * q.val = q.val; omega

/-! ## What the points write back, and the result array -/

/-- The layer of the argument arrays as core `c` was launched with them. -/
abbrev result (c : Dev nD) : Buf (Elt Ideal) ((c : Thread nD τ).loc main_v1) :=
  GraphConv.layer (m ((c : Thread nD τ).loc main_arg0)) (m ((c : Thread nD τ).loc main_arg1))
    (m ((c : Thread nD τ).loc main_arg2)) (m ((c : Thread nD τ).loc main_arg3)) (m ((c : Thread nD τ).loc main_arg4))

/-- Element `(p, q)` of the output block of point `t` sits at row `80 (t − 1) + p` of the result array. -/
theorem output_block (c : Dev nD) (t : Fin cfg0.N) (G : Buf (Elt Ideal) ((c : Thread nD τ).loc main_v1))
    (p : Fin 80) (q : Fin 128) :
    ((cfg0.win 5).blk t).view.read (Elt Ideal) G (ix2 p q) = G (ix2 (rowOf t p) q) := by
  obtain ⟨-, -, -, -, -, -, -, -, -, -, e0, e1⟩ := index_facts t
  rw [View.read_apply]
  show G (((cfg0.win 5).blk t).view.emb (ix2 p q)) = _
  have h : ((cfg0.win 5).blk t).view.emb (ix2 p q) = ix2 (rowOf t p) q := by
    funext a; apply Fin.ext
    match a with
    | ⟨0, _⟩ => show win0_5.index t (0 : Fin 2) * 80 + 1 * p.val = (t.val - 1) * 80 + p.val; omega
    | ⟨1, _⟩ => show win0_5.index t (1 : Fin 2) * 128 + 1 * q.val = q.val; omega
  rw [h]

/-- What a point writes back is its block of the layer. -/
theorem written_back (c : Dev nD) (t : Fin cfg0.N) (hf : (cfg0.win 5).flush t = true) :
    (dats m 0 c).flushed 5 t = ((cfg0.win 5).blk t).view.read (Elt Ideal) (result m c) := by
  have hN : cfg0.N = 126 := N_0
  have ht : 1 ≤ t.val := (flush_iff t).mp hf
  have h0 : ¬t.val % 126 = 0 := by have := t.isLt; omega
  rw [Cert.KernelIdeal.Value.flushed5_B m c t h0 ht, later_point_output, scratch_after m c (t.val - 1) _]
  funext j
  obtain ⟨p, q, rfl⟩ : ∃ (p : Fin 80) (q : Fin 128), j = ix2 p q := ⟨j 0, j 1, eq_ix2 j⟩
  rw [output_block c t (result m c) p q]
  show k0_pay2 (F := Ideal) (iblk m c 3 t) (storedSupport m c grid_pos)
      (View.ld (storedSupport m c grid_pos) (Rect.unit (s := S10000x128) (k0_off1 (grid0.coords t)) S80x128.size _))
      (iblk m c 4 t) (ix2 p q) = _
  exact stored_entry_eq (m ((c : Thread nD τ).loc main_arg0)) (m ((c : Thread nD τ).loc main_arg1))
    (m ((c : Thread nD τ).loc main_arg2)) (m ((c : Thread nD τ).loc main_arg3)) (m ((c : Thread nD τ).loc main_arg4))
    (iblk m c 0 ⟨0, grid_pos⟩) (iblk m c 1 ⟨0, grid_pos⟩) (iblk m c 2 ⟨0, grid_pos⟩) (iblk m c 3 t) (iblk m c 4 t)
    (View.ld (storedSupport m c grid_pos) (Rect.unit (s := S10000x128) (k0_off1 (grid0.coords t)) S80x128.size _))
    (rowOf t)
    (features_block m c ⟨0, grid_pos⟩) (weights_block m c ⟨0, grid_pos⟩) (bias_block m c ⟨0, grid_pos⟩)
    (adjacency_block m c t) (scale_block m c t)
    (fun p q => rows_at_offset (storedSupport m c grid_pos) t ht _ p q) p q

/-- An index of the result array is in the output block of point `t` iff each coordinate is in the block's range. -/
theorem mem_output_block (t : Fin cfg0.N) (i : S10000x128.Idx) :
    i ∈ ((cfg0.win 5).blk t).view.set ↔ ∀ a : Fin 2, win0_5.index t a * S80x128.size a ≤ (i a).val
      ∧ (i a).val < win0_5.index t a * S80x128.size a + S80x128.size a := by
  show i ∈ ((View.whole main_v1).slice (win0_5.rect t)).set ↔ _
  rw [View.set_slice_whole, Rect.mem_set_unit]
  exact Iff.rfl

/-- Row `r` of the result array lies in the block written back at point `r / 80 + 1`. -/
theorem covered (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 126 := N_0
  obtain ⟨t, ht⟩ : ∃ t : Fin cfg0.N, t.val = (i 0).val / 80 + 1 := ⟨⟨(i 0).val / 80 + 1, by omega⟩, rfl⟩
  obtain ⟨-, -, -, -, -, -, -, -, -, -, e0, e1⟩ := index_facts t
  refine ⟨t, (flush_iff t).mpr (by omega), ?_⟩
  rw [mem_output_block]
  intro a
  match a with
  | ⟨0, _⟩ =>
    show win0_5.index t (0 : Fin 2) * 80 ≤ (i 0).val ∧ (i 0).val < win0_5.index t (0 : Fin 2) * 80 + 80
    omega
  | ⟨1, _⟩ =>
    show win0_5.index t (1 : Fin 2) * 128 ≤ (i 1).val ∧ (i 1).val < win0_5.index t (1 : Fin 2) * 128 + 128
    omega

/-- The result array ends holding the layer. -/
theorem result_array (c : Dev nD) : (dats m 0 c).arrAt 5 cfg0.N = result m c :=
  (dats m 0 c).arrAt_eq_of_cover 5 (result m c) (written_back m c) covered

/-- The kernel's run: it terminates without a fault, the result array at the layer, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_array m c), (h c).2⟩)
    (Cert.KernelIdeal.Value.run_blocks m ρ)

end Cert.GraphConv.Kernel

end
-- ==== Proof.RefValue.lean ====
/-
  The reference program computes the layer.

  Its last stage, read at row `r` and column `q` one operation at a time: the clamp at zero of the difference of two
  stages — the stage `x · W + b` (the first product's sum over the 128 shared coordinates, plus the bias row repeated
  over the rows, which reads `b q`) and the scale column `dn` repeated over the 128 columns (which reads `dn (r, 0)`)
  times the second product, the sum over the 10000 shared coordinates `k` of `adj (r, k)` times the first stage at
  `(k, q)`. The operand indices the two products read are `(r, k)` and `(k, q)`.
-/
import proofs.«156393_g26182120636488_cont_sun_m_430_15_alg».proof.Proof.Gen.ReferenceIdeal.Read
import proofs.«156393_g26182120636488_cont_sun_m_430_15_alg».proof.Proof.Spec

noncomputable section

namespace Cert.GraphConv.Ref

open Cert.ReferenceIdeal Cert.ReferenceIdeal.Read Idealize.ShloMosaic Idealize.ShloMosaic.ValueIdx

/-! ## Where each stage reads its operands -/

theorem lidx0 (r : Fin 10000) (q : Fin 128) (k : Fin 128) : lidx_main_v0 (ix2 r q) k = ix2 r k :=
  funext fun a => match a with | ⟨0, _⟩ => rfl | ⟨1, _⟩ => rfl

theorem ridx0 (r : Fin 10000) (q : Fin 128) (k : Fin 128) : ridx_main_v0 (ix2 r q) k = ix2 k q :=
  funext fun a => match a with | ⟨0, _⟩ => rfl | ⟨1, _⟩ => rfl

theorem lidx4 (r : Fin 10000) (q : Fin 128) (k : Fin 10000) : lidx_main_v4 (ix2 r q) k = ix2 r k :=
  funext fun a => match a with | ⟨0, _⟩ => rfl | ⟨1, _⟩ => rfl

theorem ridx4 (r : Fin 10000) (q : Fin 128) (k : Fin 10000) : ridx_main_v4 (ix2 r q) k = ix2 k q :=
  funext fun a => match a with | ⟨0, _⟩ => rfl | ⟨1, _⟩ => rfl

theorem idx_bias (r : Fin 10000) (q : Fin 128) : idx_main_v1 (idx_main_v2 (ix2 r q)) = ix1 q :=
  funext fun a => match a with | ⟨0, _⟩ => rfl

theorem idx_scale (r : Fin 10000) (q : Fin 128) : idx_main_v5 (ix2 r q) = ix2 r (0 : Fin 1) :=
  funext fun a => match a with | ⟨0, _⟩ => rfl | ⟨1, _⟩ => rfl

/-! ## The stages -/

/-- The stage `x · W + b` at `(r, q)`. -/
theorem stage_support (x : GraphConv.Mat 10000 128) (W : GraphConv.Mat 128 128) (b : GraphConv.Vect 128)
    (r : Fin 10000) (q : Fin 128) :
    val_main_v3 (F := Ideal) x W b (ix2 r q) = GraphConv.support x W b r q := by
  rw [val_main_v3_apply, val_main_v0_apply, val_main_v2_apply, val_main_v1_apply]
  simp only [lidx0, ridx0, idx_bias]
  rfl

/-- The last stage is the layer. -/
theorem stage_layer (x : GraphConv.Mat 10000 128) (adj : GraphConv.Mat 10000 10000) (dn : GraphConv.Mat 10000 1)
    (W : GraphConv.Mat 128 128) (b : GraphConv.Vect 128) :
    val_main_v8 (F := Ideal) x adj dn W b = GraphConv.layer x adj dn W b := by
  funext i
  obtain ⟨r, q, rfl⟩ : ∃ (r : Fin 10000) (q : Fin 128), i = ix2 r q := ⟨i 0, i 1, eq_ix2 i⟩
  rw [val_main_v8_apply, val_main_v7_apply, val_main_v6_apply, val_main_v5_apply, val_main_v4_apply,
    val_main_call0_v0_apply, val_main_call0_cst_apply, stage_support]
  simp only [lidx4, ridx4, idx_scale, stage_support]
  rfl

end Cert.GraphConv.Ref

end
-- ==== Proof.lean ====
/-
  A graph-convolution layer computed block by block equals the same layer computed whole, on the extended reals.

  Both programs compute, for node features `x`, a dense adjacency `adj`, a per-node scale `dn`, weights `W` and bias `b`,

      support = x · W + b,      result = max (support − dn · (adj · support)) 0.

  The kernel runs over a grid of 126 points: the first point computes `support` once into a scratch array that stays
  in place for the rest of the run, and each later point computes 80 rows of the result from its 80 rows of `adj` and
  `dn`, the whole scratch, and the scratch's own 80 rows. The reference computes the two matrix products whole.

  On the extended reals a product contracted over one axis is the plain sum over that axis's coordinate, whether it is
  computed into a zero accumulator block by block or whole; the two programs therefore compute, at every entry
  `(r, q)`, the same expression in the same shape,

      max ((Σ k, x (r, k) · W (k, q) + b q) − dn (r, 0) · Σ k, adj (r, k) · (Σ j, x (k, j) · W (j, q) + b q)) 0,

  and no law that needs finite entries is used: the precondition is not opened. The output's first block is visited by
  the first two grid points and written back only after the second, so every block of the result array ends holding
  what a later point stored.

  The three frames are the generated ones (the reference's is its generated run with the result dropped); the kernel's
  idealization rewrote nothing, so that conjunct is trivial; the equality of results sets the kernel's run, with its
  result array named as the layer, beside the reference's run, whose last stage read entry by entry is the layer.
-/
import proofs.«156393_g26182120636488_cont_sun_m_430_15_alg».proof.Defs
import proofs.«156393_g26182120636488_cont_sun_m_430_15_alg».proof.Proof.Gen.Kernel
import proofs.«156393_g26182120636488_cont_sun_m_430_15_alg».proof.Proof.Gen.Kernel.Frame
import proofs.«156393_g26182120636488_cont_sun_m_430_15_alg».proof.Proof.Gen.KernelIdeal
import proofs.«156393_g26182120636488_cont_sun_m_430_15_alg».proof.Proof.Gen.KernelIdeal.Frame
import proofs.«156393_g26182120636488_cont_sun_m_430_15_alg».proof.Proof.Gen.KernelIdeal.Value
import proofs.«156393_g26182120636488_cont_sun_m_430_15_alg».proof.Proof.Gen.ReferenceIdeal
import proofs.«156393_g26182120636488_cont_sun_m_430_15_alg».proof.Proof.Gen.ReferenceIdeal.Run
import proofs.«156393_g26182120636488_cont_sun_m_430_15_alg».proof.Proof.Gen.ReferenceIdeal.Read
import proofs.«156393_g26182120636488_cont_sun_m_430_15_alg».proof.Proof.Gen.Pre_finite_inputs
import proofs.«156393_g26182120636488_cont_sun_m_430_15_alg».proof.Proof.KernelValue
import proofs.«156393_g26182120636488_cont_sun_m_430_15_alg».proof.Proof.RefValue

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result array and the reference's last stage are both the
    layer of those arguments. -/
theorem algebraic : Cert.algebraic_KernelIdeal_ReferenceIdeal := by
  intro m ρ m' ρ' _ hagree
  refine ⟨fun c => Cert.GraphConv.Kernel.result m c, Cert.GraphConv.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.GraphConv.Ref.stage_layer, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
